-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S4096 : S_.BroadcastsInDim S4096 (![] : Fin 0 → Fin S4096.rank)
  reducesTo_S4096_S_d0 : S4096.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S1024x4096 .f32) (main_arg1 : FVec F S2048x8 .f32) (main_arg2 : FVec F S4096 .f32) (main_arg3 : IVec S2097152 32) (main_arg4 : FVec F S2048 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S2048x8 .f32 := Host.absf main_arg1
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_c_1 : IVec S_ 1 := constantI S_ 1 1#1
  let main_v7 : IVec S_ 1 := (fun x v => Host.reduce IntOp.andi x v reducesTo_S2048x8_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S512x8x4096 : Shape := ⟨3, ![512, 8, 4096]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S2048x8, .f32⟩
  | .hbm, ⟨2, _⟩ => ⟨S4096, .f32⟩
  | .hbm, ⟨3, _⟩ => ⟨S2097152, .i32⟩
  | .hbm, ⟨4, _⟩ => ⟨S2048, .f32⟩
  | .hbm, ⟨5, _⟩ => ⟨S2048x8, .bf16⟩
  | .hbm, ⟨6, _⟩ => ⟨S_, .i32⟩
  | .hbm, ⟨7, _⟩ => ⟨S2097152, .i32⟩
  | .hbm, ⟨8, _⟩ => ⟨S2097152, .i1⟩
  | .hbm, ⟨9, _⟩ => ⟨S_, .i32⟩
  | .hbm, ⟨10, _⟩ => ⟨S2097152, .i32⟩
  | .hbm, ⟨11, _⟩ => ⟨S2097152, .i32⟩
  | .hbm, ⟨12, _⟩ => ⟨S2097152, .i32⟩
  | .hbm, ⟨13, _⟩ => ⟨S2097152x1, .i32⟩
  | .hbm, ⟨14, _⟩ => ⟨S2097152x8, .bf16⟩
  | .hbm, ⟨15, _⟩ => ⟨S512x4096x8, .bf16⟩
  | .hbm, ⟨16, _⟩ => ⟨S512x8x4096, .bf16⟩
  | .hbm, ⟨17, _⟩ => ⟨S4096x4096, .bf16⟩
  | .hbm, ⟨18, _⟩ => ⟨S1x4096, .f32⟩
  | .hbm, ⟨19, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S512x8x4096_0_2_1 : S512x4096x8.Transposes [0, 2, 1] S512x8x4096
  shapeCasts_S512x8x4096_S4096x4096 : S512x8x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S2048x8_S2097152x1_S2097152x8_1_0_n_n_0_1_18_wf : GatherDims.WF S2048x8 S2097152x1 S2097152x8 [1] [0] [] [0] [] 1 ![1, 8]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .f32 = 32 ∨ (Rect.block (s := S1024x4096) S1024x1024.size (cc0_transform_3 i) (hinb0_3 i)).WholeWords (EltTy.packing .f32)

variable [Facts₀]

def gather_S2048x8_S2097152x1_S2097152x8_1_0_n_n_0_1_18 : GatherDims S2048x8 S2097152x1 S2097152x8 where
  offsetDims := [1]
  collapsedSliceDims := [0]
  operandBatchingDims := []
  startIndicesBatchingDims := []
  startIndexMap := [0]
  indexVectorDim := 1
  sliceSizes := ![1, 8]
  wf := gather_S2048x8_S2097152x1_S2097152x8_1_0_n_n_0_1_18_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S2048x8 : Shape := ⟨2, ![2048, 8]⟩
abbrev S4096 : Shape := ⟨1, ![4096]⟩
abbrev S2097152 : Shape := ⟨1, ![2097152]⟩
abbrev S2048 : Shape := ⟨1, ![2048]⟩
abbrev S_ : Shape := ⟨0, ![]⟩
abbrev S2097152x1 : Shape := ⟨2, ![2097152, 1]⟩
abbrev S2097152x8 : Shape := ⟨2, ![2097152, 8]⟩
abbrev S512x4096x8 : Shape := ⟨3, ![512, 4096, 8]⟩
abbrev S4096x512x8 : Shape := ⟨3, ![4096, 512, 8]⟩
abbrev S4096x4096 : Shape := ⟨2, ![4096, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x8, .f32⟩
  | .hbm, ⟨2, _⟩ => ⟨S4096, .f32⟩
  | .hbm, ⟨3, _⟩ => ⟨S2097152, .i32⟩
  | .hbm, ⟨4, _⟩ => ⟨S2048, .f32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .f32⟩
  | .hbm, ⟨14, _⟩ => ⟨S512x4096x8, .f32⟩
  | .hbm, ⟨15, _⟩ => ⟨S4096x512x8, .f32⟩
  | .hbm, ⟨16, _⟩ => ⟨S4096x4096, .f32⟩
  | .hbm, ⟨17, _⟩ => ⟨S4096x4096, .f32⟩
  | .hbm, ⟨18, _⟩ => ⟨S1024x4096, .f32⟩
  | .hbm, ⟨19, _⟩ => ⟨S1x4096, .f32⟩
  | .hbm, ⟨20, _⟩ => ⟨S1024x4096, .f32⟩
  | .hbm, ⟨21, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S512x4096x8 : S2097152x8.ShapeCasts S512x4096x8
  transposes_S512x4096x8_S4096x512x8_1_0_2 : S512x4096x8.Transposes [1, 0, 2] S4096x512x8
  shapeCasts_S4096x512x8_S4096x4096 : S4096x512x8.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  gather_S2048x8_S2097152x1_S2097152x8_1_0_n_n_0_1_18_wf : GatherDims.WF S2048x8 S2097152x1 S2097152x8 [1] [0] [] [0] [] 1 ![1, 8]
  dot_S1024x4096_S4096x4096_S1024x4096_1_0_0_1_n_n_wf : DotDims.WF S1024x4096 S4096x4096 S1024x4096 [1] [0] [0] [1] [] []

variable [Facts₀]

def gather_S2048x8_S2097152x1_S2097152x8_1_0_n_n_0_1_18 : GatherDims S2048x8 S2097152x1 S2097152x8 where
  offsetDims := [1]
  collapsedSliceDims := [0]
  operandBatchingDims := []
  startIndicesBatchingDims := []
  startIndexMap := [0]
  indexVectorDim := 1
  sliceSizes := ![1, 8]
  wf := gather_S2048x8_S2097152x1_S2097152x8_1_0_n_n_0_1_18_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Pieces.lean ====
/-
  What each of the kernel body's three control cases leaves behind, as the body's own arithmetic of what it loaded.

  The body keeps a 1024×1024 accumulator in scratch memory. On the first k-step of an output tile it stores zeros there
  and then adds the step's product; on the middle steps it only adds; on the last step it adds and then writes
  accumulator + bias row to the output tile. Every load and store is of a whole buffer, so each case leaves exactly one
  payload (or one payload over another) in each buffer it stores to.
-/
import proofs.«120193_j16123307229809_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First k-step: zeros are stored, read back, and the step's product is added onto them. -/
theorem scratch_first (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .bf16) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle k-step: the step's product is added onto what the step before left. -/
theorem scratch_middle (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread, View.ld_unit_zero (S := S1024x1024) hz]

/-- The last k-step leaves the same sum in the accumulator … -/
theorem scratch_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- … and writes that sum plus the bias row to the output tile. -/
theorem out_last (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

end Cert.KernelIdeal.Pieces

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.LibDotHost.lean ====
/-
  The host's matrix product read one entry at a time on the extended reals.

  The product of an `m × k` matrix with a `k × n` matrix — a contraction of the left operand's second axis with
  the right operand's first — has at `(p, q)` the sum over `c` of `l (p, c) · r (c, q)`, whatever order the sum is
  scheduled in.
-/
import Idealize.ShloMosaic.Lib.ValueIdx
import Idealize.ShloMosaic.Lib.Pipeline.Value
import Idealize.ShloMosaic.PureOps.Ideal.Laws

namespace Cert.LibDotHost

open Idealize.ShloMosaic Idealize.ShloMosaic.ValueIdx

/-- The host product at `(p, q)`: the sum over `c` of `l (p, c) · r (c, q)`. The four hypotheses say which
    coordinate of the output index or of the contraction index each operand coordinate is. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) := by
  refine (Ideal.dotGeneral_apply D none .single l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibDotHost
-- ==== Proof.LibPlainDot.lean ====
/-
  The plain matrix product `(m × k) · (k × n)`, read one entry at a time on the extended reals, from the dimension
  numbers alone.

  A product whose dimension numbers say "no batch axes; the left operand keeps axis 0 and contracts axis 1; the right
  operand contracts axis 0 and keeps axis 1" has at `(p, q)` the sum over `c` of `l (p, c) · r (c, q)`, whether it is
  the host's `dot_general` or the matrix unit's product into a zero accumulator. The six lists are taken as equations,
  so a printed record discharges each by `rfl`.
-/
import proofs.«120193_j16123307229809_2_alg».proof.Proof.LibRows
import proofs.«120193_j16123307229809_2_alg».proof.Proof.LibDotHost

namespace Cert.LibPlainDot

open Idealize.ShloMosaic Idealize.ShloMosaic.ValueIdx

variable {M K N : ℕ} (D : DotDims ⟨2, ![M, K]⟩ ⟨2, ![K, N]⟩ ⟨2, ![M, N]⟩)
  (hlb : D.lhsBatch = []) (hrb : D.rhsBatch = []) (hln : D.lhsNonContracting = [0]) (hrn : D.rhsNonContracting = [1])
  (hlc : D.lhsContracting = [1]) (hrc : D.rhsContracting = [0])

include hlc in
/-- One contracted axis. -/
theorem contr_rank : D.contr.rank = 1 := D.rank_contr.trans (by rw [hlc]; rfl)

include hlc in
/-- Its extent is `K`. -/
theorem contr_size : D.contr.size ⟨0, by rw [contr_rank D hlc]; exact Nat.one_pos⟩ = K := by
  have hp : 0 < D.lhsContracting.length := by rw [hlc]; exact Nat.one_pos
  refine (D.size_contr 0 hp).trans ?_
  rw [List.getElem_of_eq hlc hp]
  rfl

include hlb hln in
/-- The left operand's row is the result's row. -/
theorem lhs_row (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln])

include hrb hrn hlb hln in
/-- The right operand's column is the result's column. -/
theorem rhs_col (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln, hrn])

include hlb hrb hln hrn hlc hrc in
/-- The matrix unit's product into a zero accumulator, at `(p, q)`. -/
theorem matmul_apply {φ₁ φ₂ : FTy} (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) :=
  Cert.LibRows.matmul_zero_apply D (contr_rank D hlc) (contr_size D hlc) (lhs_row D hlb hln)
    (fun i k => D.lhsIdx_val_of_single hlc i k) (fun i k => D.rhsIdx_val_of_single hrc i k) (rhs_col D hlb hrb hln hrn) l r p q

include hlb hrb hln hrn hlc hrc in
/-- The host's product, at `(p, q)`. -/
theorem dotGeneral_apply {φ₁ φ₂ : FTy} (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) :=
  Cert.LibDotHost.dotGeneral_apply D (contr_rank D hlc) (contr_size D hlc) (lhs_row D hlb hln)
    (fun i k => D.lhsIdx_val_of_single hlc i k) (fun i k => D.rhsIdx_val_of_single hrc i k) (rhs_col D hlb hrb hln hrn) l r p q

end Cert.LibPlainDot
-- ==== Proof.Payloads.lean ====
/-
  The body's three payloads read at one entry, on the extended reals.

  The reset payload is the zero matrix. One accumulation step adds to the accumulator's entry (p, q) the dot product of
  row p of the x tile with column q of the weight tile (the narrowing of x to bf16 is the identity at exact values, and
  the matrix unit's product into a zero accumulator is that plain sum). The write-out adds the bias row's entry q.
-/
import proofs.«120193_j16123307229809_2_alg».proof.Proof.Gen.KernelIdeal.Skeleton
import proofs.«120193_j16123307229809_2_alg».proof.Proof.LibPlainDot
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- The reset stores zeros. -/
theorem zero_apply (j : S1024x1024.Idx) : k0_pay1 (F := Ideal) j = 0 := by
  unfold k0_pay1
  refine (congrFun (shapeCast_self _ _) j).trans ?_
  exact Ideal.ofBits_zero_f32

/-- One accumulation step at (p, q). -/
theorem step_apply (x0 : Vec Ideal S1024x1024 .f32) (x1 : Vec Ideal S1024x1024 .bf16) (acc : Vec Ideal S1024x1024 .f32)
    (p q : Fin 1024) :
    k0_pay2 x0 x1 acc (ix2 p q) = acc (ix2 p q) + ∑ c : Fin 1024, x0 (ix2 p c) * x1 (ix2 c q) := by
  unfold k0_pay2
  simp only [shapeCast_self]
  refine congrArg (fun z => acc (ix2 p q) + z) ?_
  exact Cert.LibPlainDot.matmul_apply (M := 1024) (K := 1024) (N := 1024) dot_S1024x1024_S1024x1024_S1024x1024_1_0_0_1_n_n
    rfl rfl rfl rfl rfl rfl (truncf .bf16 x0 bitsLt_bf16_f32) x1 p q

/-- The write-out at (p, q): the accumulator's entry plus the bias row's entry q. -/
theorem writeout_apply (a : Vec Ideal S1024x1024 .f32) (b : Vec Ideal S1x1024 .f32) (p q : Fin 1024) :
    k0_pay3 a b (ix2 p q) = a (ix2 p q) + b (ix2 (0 : Fin 1) q) := by
  unfold k0_pay3
  refine congrArg (fun z => a (ix2 p q) + z) ?_
  refine (broadcastTo_apply _ broadcasts_S1x1024_S1024x1024 (ix2 p q) (ix2 (0 : Fin 1) q) (fun a => ?_)).trans
    (congrFun (shapeCast_self b shapeCasts_S1x1024_S1x1024) _)
  match a with
  | ⟨0, _⟩ => rfl
  | ⟨1, _⟩ => rfl

end Cert.KernelIdeal.Payloads

end
-- ==== Proof.Blocks.lean ====
/-
  Which entries of the whole arrays each grid point's blocks hold.

  The grid has 16 points; point t works on output column tile j = t / 4 at k-step k = t % 4. At that point the x block
  is rows 0…1023, columns 1024·k…; the weight block is rows 1024·k…, columns 1024·j…; the bias block is row 0, columns
  1024·j…; and the output block is rows 0…1023, columns 1024·j….
-/
import proofs.«120193_j16123307229809_2_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps, decided once over the grid. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- Entry (p, a) of the x block at point t is x at (p, 1024·(t % 4) + a). -/
theorem x_block (c : Dev nD) (t : Fin cfg0.N) (p a : Fin 1024) (k : Fin 4096) (hk : k.val = 1024 * (t.val % 4) + a.val) :
    iblk m c 0 t (ix2 p a) = V m c main_arg0 (ix2 p k) := by
  obtain ⟨e0, e1, -⟩ := idx_facts t
  unfold iblk
  show V m c main_arg0 (((cfg0.win 0).blk t).view.emb (ix2 p a)) = V m c main_arg0 (ix2 p k)
  refine congrArg (V m c main_arg0) (funext fun d => Fin.ext ?_)
  match d with
  | ⟨0, _⟩ => show win0_0.index t (0 : Fin 2) * 1024 + 1 * p.val = p.val; omega
  | ⟨1, _⟩ => show win0_0.index t (1 : Fin 2) * 1024 + 1 * a.val = k.val; omega

/-- Entry (a, q) of the weight block at point t is the weight at (1024·(t % 4) + a, 1024·(t / 4) + q). -/
theorem w_block (c : Dev nD) (t : Fin cfg0.N) (a q : Fin 1024) (k o : Fin 4096) (hk : k.val = 1024 * (t.val % 4) + a.val)
    (ho : o.val = 1024 * (t.val / 4) + q.val) :
    iblk m c 1 t (ix2 a q) = V m c main_v10 (ix2 k o) := by
  obtain ⟨-, -, e2, e3, -⟩ := idx_facts t
  unfold iblk
  show V m c main_v10 (((cfg0.win 1).blk t).view.emb (ix2 a q)) = V m c main_v10 (ix2 k o)
  refine congrArg (V m c main_v10) (funext fun d => Fin.ext ?_)
  match d with
  | ⟨0, _⟩ => show win0_1.index t (0 : Fin 2) * 1024 + 1 * a.val = k.val; omega
  | ⟨1, _⟩ => show win0_1.index t (1 : Fin 2) * 1024 + 1 * q.val = o.val; omega

/-- Entry (0, q) of the bias block at point t is the bias row at (0, 1024·(t / 4) + q). -/
theorem b_block (c : Dev nD) (t : Fin cfg0.N) (q : Fin 1024) (o : Fin 4096) (ho : o.val = 1024 * (t.val / 4) + q.val) :
    iblk m c 2 t (ix2 (0 : Fin 1) q) = V m c main_v11 (ix2 (0 : Fin 1) o) := by
  obtain ⟨-, -, -, -, e4, e5, -⟩ := idx_facts t
  unfold iblk
  show V m c main_v11 (((cfg0.win 2).blk t).view.emb (ix2 (0 : Fin 1) q)) = V m c main_v11 (ix2 (0 : Fin 1) o)
  refine congrArg (V m c main_v11) (funext fun d => Fin.ext ?_)
  match d with
  | ⟨0, _⟩ => show win0_2.index t (0 : Fin 2) * 1 + 1 * 0 = 0; omega
  | ⟨1, _⟩ => show win0_2.index t (1 : Fin 2) * 1024 + 1 * q.val = o.val; omega

end Cert.KernelIdeal.Blocks

end
-- ==== Proof.LibTiles.lean ====
/-
  Two regroupings of a finite sum in a commutative monoid (so also on the extended reals, with no finiteness needed).

  A sum of T·R terms is the sum over T tiles of R consecutive terms; and a sum of n + e terms whose last e terms are
  zero is the sum of the first n.
-/
import Mathlib.Algebra.BigOperators.Fin
import Mathlib.Logic.Equiv.Fin.Basic

namespace Cert.LibTiles

variable {M : Type*} [AddCommMonoid M]

/-- Term k of tile p has a number below T·R. -/
theorem tile_lt {T R : ℕ} (p : Fin T) (k : Fin R) : R * p.val + k.val < T * R := by
  have h1 : R * p.val + k.val < R * (p.val + 1) := by rw [Nat.mul_succ]; exact Nat.add_lt_add_left k.isLt _
  exact lt_of_lt_of_le h1 (by rw [Nat.mul_comm T R]; exact Nat.mul_le_mul_left R p.isLt)

/-- A sum of T·R terms as T tiles of R consecutive terms. -/
theorem sum_tiles (T R N : ℕ) (hN : T * R = N) (f : Fin N → M) :
    ∑ c, f c = ∑ p : Fin T, ∑ k : Fin R, f ⟨R * p.val + k.val, hN ▸ tile_lt p k⟩ := by
  subst hN
  rw [← Equiv.sum_comp finProdFinEquiv f, Fintype.sum_prod_type]
  refine Finset.sum_congr rfl fun p _ => Finset.sum_congr rfl fun k _ => congrArg f (Fin.ext ?_)
  show k.val + R * p.val = R * p.val + k.val
  exact Nat.add_comm _ _

/-- A sum whose terms past the first n are zero is the sum of the first n. -/
theorem sum_padded (n e N : ℕ) (hN : n + e = N) (F : Fin N → M) (f : Fin n → M)
    (h1 : ∀ c : Fin n, F ⟨c.val, by omega⟩ = f c) (h2 : ∀ c : Fin N, n ≤ c.val → F c = 0) : ∑ c, F c = ∑ c, f c := by
  subst hN
  rw [Fin.sum_univ_add]
  have e2 : ∑ i : Fin e, F (Fin.natAdd n i) = 0 :=
    Finset.sum_eq_zero fun i _ => h2 _ (by show n ≤ n + i.val; omega)
  rw [e2, add_zero]
  exact Finset.sum_congr rfl fun c _ => h1 c

end Cert.LibTiles
-- ==== Proof.TiledSum.lean ====
/-
  The kernel adds the four k-tiles of a length-4096 dot product one after the other onto a zero start; the reference adds
  all 4096 products at once. In a commutative additive monoid (the extended reals are one, so no finiteness is needed)
  the two groupings agree.
-/
import proofs.«120193_j16123307229809_2_alg».proof.Proof.LibTiles

namespace Cert.TiledSum

variable {M : Type*} [AddCommMonoid M]

/-- Term c of tile k has number 1024·k + c, below 4096. -/
theorem pos_lt (k : Fin 4) (c : Fin 1024) : 1024 * k.val + c.val < 4096 := by
  have := k.isLt; have := c.isLt; omega

/-- The running sum after step k of a sequence of addends, started from zero: ((0 + s 0) + s 1) + … + s k. -/
def run (s : ℕ → M) : ℕ → M
  | 0 => 0 + s 0
  | k + 1 => run s k + s (k + 1)

theorem run_zero (s : ℕ → M) : run s 0 = 0 + s 0 := rfl
theorem run_succ (s : ℕ → M) (k : ℕ) : run s (k + 1) = run s k + s (k + 1) := rfl

/-- When addend k is the sum of tile k of f, the running sum after the fourth addend is the whole sum of f. -/
theorem run_three (f : Fin 4096 → M) (s : ℕ → M)
    (hs : ∀ k : Fin 4, s k.val = ∑ c : Fin 1024, f ⟨1024 * k.val + c.val, pos_lt k c⟩) :
    run s 3 = ∑ k : Fin 4096, f k := by
  rw [Cert.LibTiles.sum_tiles 4 1024 4096 rfl f, Fin.sum_univ_four]
  show ((0 + s 0 + s 1) + s 2) + s 3 = _
  rw [zero_add, show s 0 = _ from hs 0, show s 1 = _ from hs 1, show s 2 = _ from hs 2, show s 3 = _ from hs 3]

end Cert.TiledSum
-- ==== Proof.Accumulate.lean ====
/-
  The accumulator, point by point, and the output array after the run.

  Grid point 4j + k is k-step k of output column tile j. By induction on k the scratch accumulator after that point holds,
  at (p, q), the running sum ((0 + d₀) + d₁) + … + d_k, where d_i is the dot product of row p of x with column 1024j + q
  of the weight matrix over the positions 1024i … 1024i + 1023. At k = 3 the body writes accumulator + bias to output
  tile j, and the four tiles cover the output array; the running sum after the fourth addend is the whole length-4096 dot
  product, in any order of addition, so the array ends holding x·w + bias.
-/
import proofs.«120193_j16123307229809_2_alg».proof.Proof.Gen.KernelIdeal.Value
import proofs.«120193_j16123307229809_2_alg».proof.Proof.Pieces
import proofs.«120193_j16123307229809_2_alg».proof.Proof.Payloads
import proofs.«120193_j16123307229809_2_alg».proof.Proof.Blocks
import proofs.«120193_j16123307229809_2_alg».proof.Proof.TiledSum
import Idealize.ShloMosaic.Lib.ValueIdx
import Idealize.ShloMosaic.Lib.Pipeline.Value

set_option maxRecDepth 16384

noncomputable section

namespace Cert.KernelIdeal.Accumulate

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Column 1024·j + q. -/
def col (j : Fin 4) (q : Fin 1024) : Fin 4096 := ⟨1024 * j.val + q.val, by have := j.isLt; have := q.isLt; omega⟩
/-- Position 1024·k + a along the contracted axis. -/
def pos (k : Fin 4) (a : Fin 1024) : Fin 4096 := ⟨1024 * k.val + a.val, Cert.TiledSum.pos_lt k a⟩

/-- Entry (p, k) of x as the kernel call finds it. -/
def xAt (c : Dev nD) (p : Fin 1024) (k : Fin 4096) : EReal := V m c main_arg0 (ix2 p k)
/-- Entry (k, o) of the weight matrix as the kernel call finds it. -/
def wAt (c : Dev nD) (k o : Fin 4096) : EReal := V m c main_v10 (ix2 k o)

/-- Addend k of output entry (p, o): the dot product over the positions of k-tile k (zero past the fourth tile). -/
def tileDot (c : Dev nD) (p : Fin 1024) (o : Fin 4096) (k : ℕ) : EReal :=
  if hk : k < 4 then ∑ a : Fin 1024, xAt m c p (pos ⟨k, hk⟩ a) * wAt m c (pos ⟨k, hk⟩ a) o else 0

/-- A product of two blocks that hold k-tile k of row p of x and of column 1024j + q of the weights is addend k. -/
theorem tile_dot (c : Dev nD) (j k : Fin 4) (p q : Fin 1024) (x0 : Vec Ideal S1024x1024 .f32) (x1 : Vec Ideal S1024x1024 .bf16)
    (h0 : ∀ a : Fin 1024, x0 (ix2 p a) = xAt m c p (pos k a)) (h1 : ∀ a : Fin 1024, x1 (ix2 a q) = wAt m c (pos k a) (col j q)) :
    ∑ a : Fin 1024, x0 (ix2 p a) * x1 (ix2 a q) = tileDot m c p (col j q) k.val := by
  unfold tileDot
  rw [dif_pos k.isLt]
  exact Finset.sum_congr rfl fun a _ => congrArg₂ (fun (u v : EReal) => u * v) (h0 a) (h1 a)

/-- The product the body computes at point 4j + k is addend k of the tile's entries. -/
theorem block_dot (c : Dev nD) (t : Fin cfg0.N) (j k : Fin 4) (ht : t.val = 4 * j.val + k.val) (p q : Fin 1024) :
    ∑ a : Fin 1024, (fun (x0 : Vec Ideal S1024x1024 .f32) (x1 : Vec Ideal S1024x1024 .bf16) => x0 (ix2 p a) * x1 (ix2 a q))
      (iblk m c 0 t) (iblk m c 1 t) = tileDot m c p (col j q) k.val := by
  have hq : t.val / 4 = j.val := by have := k.isLt; omega
  have hr : t.val % 4 = k.val := by have := k.isLt; omega
  exact tile_dot m c j k p q (iblk m c 0 t) (iblk m c 1 t)
    (fun a => Blocks.x_block m c t p a (pos k a) (by show 1024 * k.val + a.val = 1024 * (t.val % 4) + a.val; rw [hr]))
    (fun a => Blocks.w_block m c t a q (pos k a) (col j q) (by show 1024 * k.val + a.val = 1024 * (t.val % 4) + a.val; rw [hr])
      (by show 1024 * j.val + q.val = 1024 * (t.val / 4) + q.val; rw [hq]))

/-- The point-by-point contents do not depend on how the point's number is written. -/
theorem outsAt0_congr (c : Dev nD) {n n' : ℕ} (e : n = n') (h : n < cfg0.N) (h' : n' < cfg0.N) :
    outsAt0 m c n h = outsAt0 m c n' h' := by subst e; rfl

/-- THE ACCUMULATOR after point 4j + k, at (p, q): the running sum of addends 0 … k of entry (p, 1024j + q). -/
theorem acc_eq (c : Dev nD) (j : Fin 4) : ∀ (k : ℕ) (hk : k < 4) (h : 4 * j.val + k < cfg0.N) (p q : Fin 1024),
    (outsAt0 m c (4 * j.val + k) h).2 (ix2 p q) = Cert.TiledSum.run (tileDot m c p (col j q)) k
  | 0, hk, h, p, q => by
    have h0 : (⟨4 * j.val + 0, h⟩ : Fin cfg0.N).val % 4 = 0 := by show (4 * j.val + 0) % 4 = 0; omega
    have h1 : ¬(⟨4 * j.val + 0, h⟩ : Fin cfg0.N).val % 4 = 3 := by show ¬(4 * j.val + 0) % 4 = 3; omega
    rw [show outsAt0 m c (4 * j.val + 0) h = _ from outsAt0_A m c ⟨4 * j.val + 0, h⟩ h0 h1]
    dsimp only
    rw [Pieces.scratch_first, Payloads.step_apply, Payloads.zero_apply, Cert.TiledSum.run_zero]
    exact congrArg (fun z : EReal => 0 + z) (block_dot m c ⟨4 * j.val + 0, h⟩ j ⟨0, hk⟩ rfl p q)
  | k + 1, hk, h, p, q => by
    have hprev : 4 * j.val + k < cfg0.N := by omega
    have ih := acc_eq c j k (by omega) hprev p q
    have h0 : ¬(⟨4 * j.val + (k + 1), h⟩ : Fin cfg0.N).val % 4 = 0 := by show ¬(4 * j.val + (k + 1)) % 4 = 0; omega
    have hb := block_dot m c ⟨4 * j.val + (k + 1), h⟩ j ⟨k + 1, hk⟩ rfl p q
    have hp : ∀ h', (outsAt0 m c ((⟨4 * j.val + (k + 1), h⟩ : Fin cfg0.N).val - 1) h').2 (ix2 p q)
        = Cert.TiledSum.run (tileDot m c p (col j q)) k := fun h' =>
      (congrArg (fun z => z.2 (ix2 p q)) (outsAt0_congr m c (by show 4 * j.val + (k + 1) - 1 = 4 * j.val + k; omega) h' hprev)).trans ih
    by_cases h1 : (⟨4 * j.val + (k + 1), h⟩ : Fin cfg0.N).val % 4 = 3
    · rw [show outsAt0 m c (4 * j.val + (k + 1)) h = _ from outsAt0_C m c ⟨4 * j.val + (k + 1), h⟩ h0 h1]
      dsimp only
      rw [Pieces.scratch_last, Payloads.step_apply, Cert.TiledSum.run_succ]
      exact congrArg₂ (fun (u v : EReal) => u + v) (hp _) hb
    · rw [show outsAt0 m c (4 * j.val + (k + 1)) h = _ from outsAt0_B m c ⟨4 * j.val + (k + 1), h⟩ h0 h1]
      dsimp only
      rw [Pieces.scratch_middle, Payloads.step_apply, Cert.TiledSum.run_succ]
      exact congrArg₂ (fun (u v : EReal) => u + v) (hp _) hb

end Cert.KernelIdeal.Accumulate

end
-- ==== Proof.Weights.lean ====
/-
  What the host lines before the kernel call put in the weight matrix and the bias row.

  The codebook's rows are gathered at the (wrapped) assignments into a 2097152×8 table; the table is re-laid as
  [512, 4096, 8], its last two axes are swapped, and the result is re-laid as the 4096×4096 weight matrix. Entry
  (k, o) of that matrix is therefore entry (k / 8 · 4096 + o, k % 8) of the gathered table. The bias vector is re-laid
  as a 1×4096 row.
-/
import proofs.«120193_j16123307229809_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Weights

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ)

/-- The gathered table: row t is the codebook's row number (assignment t, with 2048 added when negative). -/
def gatheredRows (c : Dev nD) : (⟨S2097152x8, .bf16⟩ : BufTy).Contents (Elt F) :=
  Host.gather gather_S2048x8_S2097152x1_S2097152x8_1_0_n_n_0_1_18
    (truncf .bf16 (m ((c : Thread nD τ).loc main_arg1)) bitsLt_bf16_f32)
    (broadcastInDim S2097152x1 ![0] bcast_S2097152_S2097152x1_0
      (select (cmpi .slt (m ((c : Thread nD τ).loc main_arg3)) (broadcastInDim S2097152 ![] bcast_S_S2097152 (constantI S_ 32 0#32)))
        (addi (m ((c : Thread nD τ).loc main_arg3)) (broadcastInDim S2097152 ![] bcast_S_S2097152 (constantI S_ 32 2048#32)))
        (m ((c : Thread nD τ).loc main_arg3))))

/-- The weight matrix the kernel call finds: the gathered table re-laid, its last two axes swapped, re-laid again. -/
theorem weight_eq (c : Dev nD) :
    (V m c main_v10 : (⟨S4096x4096, .bf16⟩ : BufTy).Contents (Elt F)) =
      shapeCast S4096x4096 (transpose S512x8x4096 [0, 2, 1] (shapeCast S512x4096x8 (gatheredRows m c)
        shapeCasts_S2097152x8_S512x4096x8) transposes_S512x4096x8_S512x8x4096_0_2_1) shapeCasts_S512x8x4096_S4096x4096 := by
  dsimp only [V, hostOps0]; after_results; rfl

/-- The bias row the kernel call finds: the bias vector re-laid. -/
theorem bias_eq (c : Dev nD) :
    (V m c main_v11 : (⟨S1x4096, .f32⟩ : BufTy).Contents (Elt F)) =
      shapeCast S1x4096 (m ((c : Thread nD τ).loc main_arg2)) shapeCasts_S4096_S1x4096 := by
  dsimp only [V, hostOps0]; after_results; rfl

/-- Entry (k, o) of the weight matrix is entry (k / 8 · 4096 + o, k % 8) of the gathered table. -/
theorem weight_entry (c : Dev nD) (k o : Fin 4096) (r : Fin 2097152) (b : Fin 8) (hr : r.val = k.val / 8 * 4096 + o.val)
    (hb : b.val = k.val % 8) : V m c main_v10 (ix2 k o) = gatheredRows m c (ix2 r b) := by
  have hk := k.isLt; have ho := o.isLt
  rw [weight_eq]
  refine (shapeCast_apply _ shapeCasts_S512x8x4096_S4096x4096 (ix2 k o)
    (ix3 (⟨k.val / 8, by omega⟩ : Fin 512) b o) ?_).trans ?_
  · rw [Shape.rowMajor_val_three, Shape.rowMajor_val_two]
    show ((k.val / 8) * 8 + b.val) * 4096 + o.val = k.val * 4096 + o.val
    omega
  refine (transpose_apply [0, 2, 1] _ transposes_S512x4096x8_S512x8x4096_0_2_1 (ix3 (⟨k.val / 8, by omega⟩ : Fin 512) b o)
    (ix3 (⟨k.val / 8, by omega⟩ : Fin 512) o b) (fun d => match d with
      | ⟨0, _⟩ => rfl
      | ⟨1, _⟩ => rfl
      | ⟨2, _⟩ => rfl)).trans ?_
  refine shapeCast_apply _ shapeCasts_S2097152x8_S512x4096x8 (ix3 (⟨k.val / 8, by omega⟩ : Fin 512) o b) (ix2 r b) ?_
  rw [Shape.rowMajor_val_two, Shape.rowMajor_val_three]
  show r.val * 8 + b.val = ((k.val / 8) * 4096 + o.val) * 8 + b.val
  omega

/-- Entry (0, o) of the bias row is entry o of the bias vector. -/
theorem bias_entry (c : Dev nD) (o : Fin 4096) :
    V m c main_v11 (ix2 (0 : Fin 1) o) = m ((c : Thread nD τ).loc main_arg2) (ix1 o) := by
  rw [bias_eq]
  refine shapeCast_apply _ shapeCasts_S4096_S1x4096 (ix2 (0 : Fin 1) o) (ix1 o) ?_
  rw [Shape.rowMajor_val_one, Shape.rowMajor_val_two]
  show o.val = 0 * 4096 + o.val
  omega

end Cert.KernelIdeal.Weights

end
-- ==== Proof.Spec.lean ====
/-
  The function both programs compute: x·w + bias on the extended reals, with the 4096×4096 weight matrix read out of the
  table of gathered codebook rows — w (k, o) is entry (k / 8 · 4096 + o, k % 8) of the table.
-/
import Idealize.ShloMosaic.PureOps.Ideal
import Idealize.ShloMosaic.Lib.ValueIdx

noncomputable section

namespace Cert.Spec

open Idealize.ShloMosaic Idealize.ShloMosaic.ValueIdx

/-- The table row that holds weight (k, o). -/
def row (k o : Fin 4096) : Fin 2097152 := ⟨k.val / 8 * 4096 + o.val, by have := k.isLt; have := o.isLt; omega⟩
/-- The position of weight (k, o) inside that row. -/
def lane (k : Fin 4096) : Fin 8 := ⟨k.val % 8, Nat.mod_lt _ (by decide)⟩

/-- x·w + bias, entry by entry. -/
def linear (X : (⟨2, ![1024, 4096]⟩ : Shape).Idx → EReal) (T : (⟨2, ![2097152, 8]⟩ : Shape).Idx → EReal)
    (b : (⟨1, ![4096]⟩ : Shape).Idx → EReal) : (⟨2, ![1024, 4096]⟩ : Shape).Idx → EReal :=
  fun i => (∑ k : Fin 4096, X (ix2 (i 0) k) * T (ix2 (row k (i 1)) (lane k))) + b (ix1 (i 1))

end Cert.Spec

end
-- ==== Proof.Final.lean ====
/-
  The output array after the kernel's run is x·w + bias.

  The last k-step of column tile j writes accumulator + bias row to block (0, j) of the output; the accumulator then holds
  the running sum of all four addends, which is the whole length-4096 dot product. The four written blocks cover the
  1024×4096 array, and what the kernel call finds in the weight matrix and the bias row is read back to the arguments.
-/
import proofs.«120193_j16123307229809_2_alg».proof.Proof.Accumulate
import proofs.«120193_j16123307229809_2_alg».proof.Proof.Weights
import proofs.«120193_j16123307229809_2_alg».proof.Proof.Spec

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Accumulate

variable (m : (ℓ : Loc nD τ sig) → Buf (Elt Ideal) ℓ) (ρ : Dev nD → PrngReg)

/-- What the output array ends holding: x·w + bias of the arguments, the weights read out of the gathered table. -/
def result (c : Dev nD) : Buf (Elt Ideal) ((c : Thread nD τ).loc main_v12) :=
  Cert.Spec.linear (m ((c : Thread nD τ).loc main_arg0)) (Weights.gatheredRows m c) (m ((c : Thread nD τ).loc main_arg2))

/-- Entry (0, o) of the bias row as the kernel call finds it. -/
def bAt (c : Dev nD) (o : Fin 4096) : EReal := V m c main_v11 (ix2 (0 : Fin 1) o)

/-- The running sum of all four addends plus the bias is the specification's entry. -/
theorem entry_eq (c : Dev nD) (p : Fin 1024) (o : Fin 4096) :
    Cert.TiledSum.run (tileDot m c p o) 3 + bAt m c o = result m c (ix2 p o) := by
  rw [Cert.TiledSum.run_three (fun k => xAt m c p k * wAt m c k o) (tileDot m c p o) (fun k => by
    unfold tileDot
    rw [dif_pos k.isLt]
    rfl)]
  unfold result Cert.Spec.linear
  refine congrArg₂ (fun (u v : EReal) => u + v) (Finset.sum_congr rfl fun k _ => congrArg₂ (fun (u v : EReal) => u * v) ?_ ?_) ?_
  · unfold xAt
    rw [V_main_arg0]
  · unfold wAt
    exact Weights.weight_entry m c k o (Cert.Spec.row k o) (Cert.Spec.lane k) rfl rfl
  · unfold bAt
    exact Weights.bias_entry m c o

/-- WHAT THE LAST K-STEP OF A COLUMN TILE WRITES BACK is that tile of the specification. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  have hN : t.val < 16 := lt_of_lt_of_eq t.isLt (show cfg0.N = 16 from N_0)
  obtain ⟨-, -, -, -, -, -, e6, e7⟩ := Blocks.idx_facts t
  rw [Value.flushed3_C m c t h0 h3, Pieces.out_last]
  funext y
  obtain ⟨p, q, rfl⟩ : ∃ (p q : Fin 1024), y = ix2 p q := ⟨y 0, y 1, eq_ix2 y⟩
  show (k0_pay3 (F := Ideal) _ _ (ix2 p q) : EReal) = result m c (((cfg0.win 3).blk t).view.emb (ix2 p q))
  let j : Fin 4 := ⟨t.val / 4, by omega⟩
  have hemb : ((cfg0.win 3).blk t).view.emb (ix2 p q) = ix2 p (col j q) := by
    funext d; apply Fin.ext
    match d with
    | ⟨0, _⟩ => show win0_3.index t (0 : Fin 2) * 1024 + 1 * p.val = p.val; omega
    | ⟨1, _⟩ => show win0_3.index t (1 : Fin 2) * 1024 + 1 * q.val = 1024 * (t.val / 4) + q.val; omega
  rw [hemb, ← entry_eq m c p (col j q), Payloads.writeout_apply, Payloads.step_apply]
  have ht : t.val = 4 * j.val + 3 := by show t.val = 4 * (t.val / 4) + 3; omega
  have hprev : 4 * j.val + 2 < cfg0.N := by rw [show cfg0.N = 16 from N_0]; show 4 * (t.val / 4) + 2 < 16; omega
  have hacc : ∀ h', (outsAt0 m c (t.val - 1) h').2 (ix2 p q) = Cert.TiledSum.run (tileDot m c p (col j q)) 2 := fun h' =>
    (congrArg (fun z => z.2 (ix2 p q)) (outsAt0_congr m c (by omega) h' hprev)).trans (acc_eq m c j 2 (by decide) hprev p q)
  have hb := block_dot m c t j ⟨3, by decide⟩ ht p q
  have hbias : (iblk m c 2 t (ix2 (0 : Fin 1) q) : EReal) = bAt m c (col j q) :=
    Blocks.b_block m c t q (col j q) rfl
  rw [Cert.TiledSum.run_succ]
  exact congrArg₂ (fun (u v : EReal) => u + v) (congrArg₂ (fun (u v : EReal) => u + v) (hacc _) hb) hbias

/-- An index of the array is in point t's block iff each coordinate is in the block's range on its axis. -/
theorem mem_blk (t : Fin cfg0.N) (i : S1024x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v12).slice (win0_3.rect t)).set ↔ _
  rw [View.set_slice_whole, Rect.mem_set_unit]
  exact Iff.rfl

/-- Every entry of the output lies in the block written at the last k-step of its column tile. -/
theorem cover (i : S1024x4096.Idx) : ∃ t : Fin cfg0.N, (cfg0.win 3).flush t = true ∧ i ∈ ((cfg0.win 3).blk t).view.set := by
  have hi0 : (i 0).val < 1024 := (i 0).isLt
  have hi1 : (i 1).val < 4096 := (i 1).isLt
  have hlt : 4 * ((i 1).val / 1024) + 3 < cfg0.N := by rw [show cfg0.N = 16 from N_0]; omega
  refine ⟨⟨4 * ((i 1).val / 1024) + 3, hlt⟩, (flush0_3 _).mpr (by show (4 * ((i 1).val / 1024) + 3) % 4 = 3; omega), ?_⟩
  obtain ⟨-, -, -, -, -, -, e6, e7⟩ := Blocks.idx_facts ⟨4 * ((i 1).val / 1024) + 3, hlt⟩
  have e7' : win0_3.index ⟨4 * ((i 1).val / 1024) + 3, hlt⟩ (1 : Fin 2) = (i 1).val / 1024 := by
    rw [e7]; show (4 * ((i 1).val / 1024) + 3) / 4 = (i 1).val / 1024; omega
  rw [mem_blk]
  intro a
  match a with
  | ⟨0, _⟩ =>
    show win0_3.index ⟨4 * ((i 1).val / 1024) + 3, hlt⟩ (0 : Fin 2) * 1024 ≤ (i 0).val
      ∧ (i 0).val < win0_3.index ⟨4 * ((i 1).val / 1024) + 3, hlt⟩ (0 : Fin 2) * 1024 + 1024
    rw [e6]; omega
  | ⟨1, _⟩ =>
    show win0_3.index ⟨4 * ((i 1).val / 1024) + 3, hlt⟩ (1 : Fin 2) * 1024 ≤ (i 1).val
      ∧ (i 1).val < win0_3.index ⟨4 * ((i 1).val / 1024) + 3, hlt⟩ (1 : Fin 2) * 1024 + 1024
    rw [e7']; omega

/-- So the output array ends holding the specification. -/
theorem final (c : Dev nD) : (dats m 0 c).arrAt 3 cfg0.N = result m c :=
  (dats m 0 c).arrAt_eq_of_cover 3 (result m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.Reference.lean ====
/-
  The reference computes the specification: its gather table re-laid as [512, 4096, 8], the first two axes swapped,
  re-laid as [4096, 4096] and transposed is, at (k, o), the table's entry (k / 8 · 4096 + o, k % 8); its product is the
  plain length-4096 dot product, and the bias is spread over the rows.
-/
import proofs.«120193_j16123307229809_2_alg».proof.Proof.Gen.ReferenceIdeal.Read
import proofs.«120193_j16123307229809_2_alg».proof.Proof.Spec

noncomputable section

namespace Cert.ReferenceIdeal.RefValue

open Cert.ReferenceIdeal Cert.ReferenceIdeal.Gen Idealize.ShloMosaic Idealize.ShloMosaic.ValueIdx

theorem reference_eq (x0 : (⟨S1024x4096, .f32⟩ : BufTy).Contents (Elt Ideal)) (x1 : (⟨S2048x8, .f32⟩ : BufTy).Contents (Elt Ideal))
    (x2 : (⟨S4096, .f32⟩ : BufTy).Contents (Elt Ideal)) (x3 : (⟨S2097152, .i32⟩ : BufTy).Contents (Elt Ideal)) :
    Read.val_main_v14 (F := Ideal) x0 x1 x2 x3 = Cert.Spec.linear x0 (Read.val_main_v6 (F := Ideal) x1 x3) x2 := by
  funext i
  have hi0 : (i 0).val < 1024 := (i 0).isLt
  have hi1 : (i 1).val < 4096 := (i 1).isLt
  rw [Read.val_main_v14_apply, Read.val_main_v11_apply, Read.val_main_v13_apply, Read.val_main_v12_apply]
  unfold Cert.Spec.linear
  refine congrArg₂ (fun (u v : EReal) => u + v) (Finset.sum_congr rfl fun k _ => congrArg₂ (fun (u v : EReal) => u * v) ?_ ?_) ?_
  · exact congrArg x0 (funext fun a => Fin.ext (by match a with | ⟨0, _⟩ => rfl | ⟨1, _⟩ => rfl))
  · have hk : k.val < 4096 := k.isLt
    rw [Read.val_main_v10_apply, Read.val_main_v9_apply, Read.val_main_v8_apply, Read.val_main_v7_apply]
    refine congrArg (Read.val_main_v6 (F := Ideal) x1 x3) (funext fun a => Fin.ext ?_)
    match a with
    | ⟨0, _⟩ =>
      show ((((i 1).val * 4096 + k.val) / 8 % 512 * 4096 + ((i 1).val * 4096 + k.val) / 4096) * 8
        + ((i 1).val * 4096 + k.val) % 8) / 8 = k.val / 8 * 4096 + (i 1).val
      omega
    | ⟨1, _⟩ =>
      show ((((i 1).val * 4096 + k.val) / 8 % 512 * 4096 + ((i 1).val * 4096 + k.val) / 4096) * 8
        + ((i 1).val * 4096 + k.val) % 8) % 8 = k.val % 8
      omega
  · exact congrArg x2 (funext fun a => Fin.ext (by match a with | ⟨0, _⟩ => rfl))

end Cert.ReferenceIdeal.RefValue

end
-- ==== Proof.lean ====
/-
  A quantized linear layer: out = x·Wᵀ + bias over f32[1024, 4096], where the 4096×4096 weight matrix is rebuilt from a
  2048×8 codebook and 2097152 assignments — weight (k, o) of the matrix the product contracts against is entry k % 8 of the
  codebook row assigned to block k / 8 of output feature o.

  The kernel gathers the codebook rows on the host, lays them out as the [in, out] matrix directly, and multiplies in
  the kernel call: a 1×4×4 grid whose last axis walks four k-tiles of 1024, accumulating tile products in a scratch buffer that is
  zeroed at the first k-step, and writing accumulator + bias at the last. The reference gathers the same rows, lays them
  out as [out, in], transposes, and takes one dot product of length 4096 plus the bias.

  On the extended reals (format changes are the identity, every operation exact) both are the same function: the two
  layouts read the same table entry at (k, o), and ((0 + d₀) + d₁) + d₂ + d₃ with dᵢ the sum over k-tile i is the sum over
  all 4096 positions, by associativity and commutativity alone — no finiteness of the inputs is used.

  The three frames are the generated ones (the reference's is its generated run with the result dropped); the kernel's
  idealization rewrote nothing, so "preserves" is trivial.
-/
import proofs.«120193_j16123307229809_2_alg».proof.Defs
import proofs.«120193_j16123307229809_2_alg».proof.Proof.Gen.Kernel
import proofs.«120193_j16123307229809_2_alg».proof.Proof.Gen.Kernel.Frame
import proofs.«120193_j16123307229809_2_alg».proof.Proof.Gen.KernelIdeal
import proofs.«120193_j16123307229809_2_alg».proof.Proof.Gen.KernelIdeal.Frame
import proofs.«120193_j16123307229809_2_alg».proof.Proof.Gen.ReferenceIdeal
import proofs.«120193_j16123307229809_2_alg».proof.Proof.Gen.Pre_finite_inputs
import proofs.«120193_j16123307229809_2_alg».proof.Proof.Gen.KernelIdeal.Value
import proofs.«120193_j16123307229809_2_alg».proof.Proof.Gen.ReferenceIdeal.Run
import proofs.«120193_j16123307229809_2_alg».proof.Proof.Gen.ReferenceIdeal.Read
import proofs.«120193_j16123307229809_2_alg».proof.Proof.Final
import proofs.«120193_j16123307229809_2_alg».proof.Proof.Reference
import Idealize.ShloMosaic.Adequacy
import Idealize.ShloMosaic.Init

noncomputable section

namespace Cert.Proof

open Idealize.ShloMosaic Idealize.ShloMosaic.TcCoe Idealize.SL.Sem

/-- The two programs gather the same table: narrowing the codebook to bf16 first is the identity at exact values, and
    the index arithmetic (wrap a negative assignment by 2048) is the same text. -/
theorem gathered_eq (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
      = Cert.KernelIdeal.Weights.gatheredRows m c := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at x·w + bias of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _).trans ?_
  refine (Cert.ReferenceIdeal.RefValue.reference_eq _ _ _ _).trans ?_
  rw [(hagree c).1, (hagree c).2.1, (hagree c).2.2.1, (hagree c).2.2.2.1]
  exact congrArg (fun T => Cert.Spec.linear _ T _) (gathered_eq m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
